-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S256x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 38
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S_, .i32⟩
  | .hbm, ⟨21, _⟩ => ⟨S100000, .i32⟩
  | .hbm, ⟨22, _⟩ => ⟨S1600000x1, .i32⟩
  | .hbm, ⟨23, _⟩ => ⟨S100000, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  slices_S256x128_S128x128_0_0 : S256x128.Slices ![0, 0] S128x128
  bitsLt_bf16_f32 : FTy.bits .bf16 < FTy.bits .f32
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.KernelPay.lean ====
/-
  The kernel body's stored value, read at one element.

  At row `p` and column `q` of a block the body stores
      (∑ₖ feat[p,k] · W₁[k,q])  +  (∑ₖ (nsum[p,k] · inv[p,0]) · W₂[k,q])  +  b[0,q]
  — the two matrix products into zero accumulators are plain sums over the contracted axis, the rounding of their left
  operands to bf16 is the identity at the ideal values, the column `inv` of reciprocal degrees is spread along its row
  and the one-row bias along the rows.
-/
import proofs.«104703_j128849019137_2_alg».proof.Proof.Gen.KernelIdeal.Skeleton
import proofs.«104703_j128849019137_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The body's one contraction: [5000,128] · [128,128], axis 1 against axis 0. -/
abbrev DD := dot_S5000x128_S128x128_S5000x128_1_0_0_1_n_n

/-! The operand indices of the contraction at output index `i` and contraction index `q`: left `(i₀, q)`, right `(q, i₁)`. -/

theorem lhs_0 (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_1 (i : S5000x128.Idx) (q : DD.contr.Idx) : (DD.lhsIdx i q 1).val = (q ⟨0, by decide⟩).val :=
  DD.lhsIdx_val_of_single rfl i q
theorem rhs_0 (i : S5000x128.Idx) (q : DD.contr.Idx) : (DD.rhsIdx i q 0).val = (q ⟨0, by decide⟩).val :=
  DD.rhsIdx_val_of_single rfl i q
theorem rhs_1 (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A matrix product into the zero accumulator, at `(p, q)`: the sum over `k` of left `(p, k)` times right `(k, q)`. -/
theorem mm_apply (l : FVec Ideal S5000x128 .bf16) (r : FVec Ideal S128x128 .bf16) (p : Fin 5000) (q : Fin 128) :
    matmul DD none l r (constant (F := Ideal) S5000x128 .f32 0x00000000#32) (ix2 p q) = ∑ k : Fin 128, l (ix2 p k) * r (ix2 k q) := by
  refine (Ideal.matmul_constant_zero_apply DD none l r (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 k q := funext fun a => Fin.ext (by
    match a with
    | ⟨0, _⟩ => exact (rhs_0 _ _).trans hk
    | ⟨1, _⟩ => exact rhs_1 _ _)
  rw [el, er]

/-- THE PAYLOAD AT AN ELEMENT. -/
theorem pay_apply (x0 x1 : FVec Ideal S5000x128 .f32) (x2 : FVec Ideal S5000x1 .f32) (x3 x4 : FVec Ideal S128x128 .bf16)
    (x5 : FVec Ideal S1x128 .f32) (p : Fin 5000) (q : Fin 128) :
    k0_pay1 (F := Ideal) x0 x1 x2 x3 x4 x5 (ix2 p q)
      = ((∑ k : Fin 128, x0 (ix2 p k) * x3 (ix2 k q))
          + ∑ k : Fin 128, (x1 (ix2 p k) * x2 (ix2 p (0 : Fin 1))) * x4 (ix2 k q))
        + x5 (ix2 (0 : Fin 1) q) := by
  unfold k0_pay1
  simp only [shapeCast_self]
  show (matmul DD none (truncf .bf16 x0 bitsLt_bf16_f32) x3 _ (ix2 p q)
        + matmul DD none (truncf .bf16 (mulf x1 (broadcastTo S5000x128 x2 broadcasts_S5000x1_S5000x128)) bitsLt_bf16_f32) x4 _ (ix2 p q))
      + broadcastTo S5000x128 x5 broadcasts_S1x128_S5000x128 (ix2 p q) = _
  refine congrArg₂ (· + ·) (congrArg₂ (· + ·) ?_ ?_) ?_
  · exact mm_apply _ x3 p q
  · refine (mm_apply _ x4 p q).trans (Finset.sum_congr rfl fun k _ => ?_)
    show (x1 (ix2 p k) * broadcastTo S5000x128 x2 broadcasts_S5000x1_S5000x128 (ix2 p k)) * x4 (ix2 k q) = _
    rw [Cert.LibKeepdims.broadcastTo_a1_ab_apply x2 broadcasts_S5000x1_S5000x128 p k]
  · exact broadcastTo_1b_ab_apply x5 broadcasts_S1x128_S5000x128 p q

end Cert.KernelIdeal.Pay

end
-- ==== Proof.KernelBlocks.lean ====
/-
  The kernel's grid: which rows each point is handed, and the function its result will be.

  The grid has 20 points; point `t` is handed rows `5000·t … 5000·t + 4999` of the three row-blocked inputs (features,
  neighbour sums, the reciprocal-degree column) and the whole of the two weight halves and of the bias row, and writes
  back the same rows of the result.  Each fact is stated for ANY array behind the window: it is about the index maps only.
-/
import proofs.«104703_j128849019137_2_alg».proof.Proof.Gen.KernelIdeal.Frame
import Idealize.ShloMosaic.Lib.Pipeline.Value
import Idealize.ShloMosaic.Lib.ValueIdx
import Idealize.ShloMosaic.PureOps.Ideal

noncomputable section

open Idealize.ShloMosaic Idealize.ShloMosaic.TcCoe Idealize.SL.Sem Idealize.ShloMosaic.ValueIdx

namespace Cert.KernelIdeal.Hand

open Cert.KernelIdeal Cert.KernelIdeal.Gen

theorem hz : (![0, 0] : Fin 2 → Nat) = fun _ => 0 := funext fun a => by fin_cases a <;> rfl

/-- The result at row `r`, column `c`, from the six arrays the windows stage:
    `(∑ₖ A₀[r,k]·A₃[k,c]) + (∑ₖ (A₁[r,k]·A₂[r,0])·A₄[k,c]) + A₅[0,c]`. -/
def outAt (A0 A1 : S100000x128.Idx → EReal) (A2 : S100000x1.Idx → EReal) (A3 A4 : S128x128.Idx → EReal)
    (A5 : S1x128.Idx → EReal) (r : Fin 100000) (c : Fin 128) : EReal :=
  ((∑ k : Fin 128, A0 (ix2 r k) * A3 (ix2 k c))
      + ∑ k : Fin 128, (A1 (ix2 r k) * A2 (ix2 r (0 : Fin 1))) * A4 (ix2 k c))
    + A5 (ix2 (0 : Fin 1) c)

/-- The whole result array. -/
def outArr (A0 A1 : S100000x128.Idx → EReal) (A2 : S100000x1.Idx → EReal) (A3 A4 : S128x128.Idx → EReal)
    (A5 : S1x128.Idx → EReal) : S100000x128.Idx → EReal :=
  fun i => outAt A0 A1 A2 A3 A4 A5 (i 0) (i 1)

/-- The block index of every window at every grid point: the three row-blocked inputs and the output are at row block
    `t`, the two weight halves and the bias row stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each window's block at point `t`, as rows of the array behind it -/

theorem blk0_read (A : S100000x128.Idx → EReal) (t : Fin cfg0.N) (p : Fin 5000) (k : Fin 128) (r : Fin 100000)
    (hr : r.val = t.val * 5000 + p.val) :
    ((cfg0.win 0).blk t).view.read (Elt Ideal) A (ix2 p k) = A (ix2 r k) := by
  obtain ⟨e0, e1, -⟩ := idx_facts t
  rw [View.read_apply]
  show A (((cfg0.win 0).blk t).view.emb (ix2 p k)) = A (ix2 r k)
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

theorem blk1_read (A : S100000x128.Idx → EReal) (t : Fin cfg0.N) (p : Fin 5000) (k : Fin 128) (r : Fin 100000)
    (hr : r.val = t.val * 5000 + p.val) :
    ((cfg0.win 1).blk t).view.read (Elt Ideal) A (ix2 p k) = A (ix2 r k) := by
  obtain ⟨-, -, e0, e1, -⟩ := idx_facts t
  rw [View.read_apply]
  show A (((cfg0.win 1).blk t).view.emb (ix2 p k)) = A (ix2 r k)
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

theorem blk2_read (A : S100000x1.Idx → EReal) (t : Fin cfg0.N) (p : Fin 5000) (r : Fin 100000)
    (hr : r.val = t.val * 5000 + p.val) :
    ((cfg0.win 2).blk t).view.read (Elt Ideal) A (ix2 p (0 : Fin 1)) = A (ix2 r (0 : Fin 1)) := by
  obtain ⟨-, -, -, -, e0, e1, -⟩ := idx_facts t
  rw [View.read_apply]
  show A (((cfg0.win 2).blk t).view.emb (ix2 p (0 : Fin 1))) = A (ix2 r (0 : Fin 1))
  refine congrArg A (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

theorem blk3_read (A : S128x128.Idx → EReal) (t : Fin cfg0.N) (k : Fin 128) (q : Fin 128) :
    ((cfg0.win 3).blk t).view.read (Elt Ideal) A (ix2 k q) = A (ix2 k q) := by
  obtain ⟨-, -, -, -, -, -, e0, e1, -⟩ := idx_facts t
  rw [View.read_apply]
  show A (((cfg0.win 3).blk t).view.emb (ix2 k q)) = A (ix2 k q)
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem blk4_read (A : S128x128.Idx → EReal) (t : Fin cfg0.N) (k : Fin 128) (q : Fin 128) :
    ((cfg0.win 4).blk t).view.read (Elt Ideal) A (ix2 k q) = A (ix2 k q) := by
  obtain ⟨-, -, -, -, -, -, -, -, e0, e1, -⟩ := idx_facts t
  rw [View.read_apply]
  show A (((cfg0.win 4).blk t).view.emb (ix2 k q)) = A (ix2 k q)
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem blk5_read (A : S1x128.Idx → EReal) (t : Fin cfg0.N) (q : Fin 128) :
    ((cfg0.win 5).blk t).view.read (Elt Ideal) A (ix2 (0 : Fin 1) q) = A (ix2 (0 : Fin 1) q) := by
  obtain ⟨-, -, -, -, -, -, -, -, -, -, e0, e1, -⟩ := idx_facts t
  rw [View.read_apply]
  show A (((cfg0.win 5).blk t).view.emb (ix2 (0 : Fin 1) q)) = A (ix2 (0 : Fin 1) q)
  refine congrArg A (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

end Cert.KernelIdeal.Hand

end
-- ==== Proof.KernelValue.lean ====
/-
  The kernel's result array as ONE function of the arrays the region finds.

  Row `r`, column `c` of what point `t` writes back is
      (∑ₖ feat[r,k] · W₁[k,c]) + (∑ₖ (nsum[r,k] · inv[r,0]) · W₂[k,c]) + b[0,c]        with r = 5000·t + (row in the block),
  a function of the whole arrays at `(r, c)` that does not mention the point.  The 20 row blocks tile the 100000 rows, so
  after the run the result array is that function everywhere.
-/
import proofs.«104703_j128849019137_2_alg».proof.Proof.Gen.KernelIdeal.Frame
import proofs.«104703_j128849019137_2_alg».proof.Proof.Gen.KernelIdeal.Value
import proofs.«104703_j128849019137_2_alg».proof.Proof.KernelPay
import proofs.«104703_j128849019137_2_alg».proof.Proof.KernelBlocks
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

/-! ## What a point stores is the whole-array function at the block's rows -/

/-- For ANY six arrays behind the windows: the body's stored value, computed from point `t`'s blocks of them, at element
    `y` of the block is `outArr` of the arrays at the array index `i` that element sits at — row `5000·t + y₀`, column `y₁`. -/
theorem point_gen (A0 A1 : S100000x128.Idx → EReal) (A2 : S100000x1.Idx → EReal) (A3 A4 : S128x128.Idx → EReal)
    (A5 : S1x128.Idx → EReal) (t : Fin cfg0.N) (y : S5000x128.Idx) (i : S100000x128.Idx)
    (hi0 : (i 0).val = t.val * 5000 + (y 0).val) (hi1 : (i 1).val = (y 1).val) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5) y
      = outArr A0 A1 A2 A3 A4 A5 i := by
  obtain ⟨p, q, rfl⟩ : ∃ (p : Fin 5000) (q : Fin 128), y = ix2 p q := ⟨y 0, y 1, eq_ix2 y⟩
  obtain ⟨r, cc, rfl⟩ : ∃ (r : Fin 100000) (cc : Fin 128), i = ix2 r cc := ⟨i 0, i 1, eq_ix2 i⟩
  have hr : r.val = t.val * 5000 + p.val := hi0
  have hc : cc = q := Fin.ext hi1
  subst hc
  refine (Pay.pay_apply (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5) p cc).trans ?_
  show _ = outAt A0 A1 A2 A3 A4 A5 r cc
  unfold outAt
  refine congrArg₂ (· + ·) (congrArg₂ (· + ·) (Finset.sum_congr rfl fun k _ => ?_) (Finset.sum_congr rfl fun k _ => ?_)) ?_
  · exact congrArg₂ (· * ·) (blk0_read A0 t p k r hr) (blk3_read A3 t k cc)
  · exact congrArg₂ (· * ·) (congrArg₂ (· * ·) (blk1_read A1 t p k r hr) (blk2_read A2 t p r hr)) (blk4_read A4 t k cc)
  · exact blk5_read A5 t cc

variable (m : (ℓ : Loc nD τ sig) → Buf (Elt Ideal) ℓ) (ρ : Dev nD → PrngReg)

/-- WHAT POINT `t` WRITES BACK is block `t` of `outArr` of the region-entry arrays. -/
theorem flushed_eq (c : Dev nD) (t : Fin cfg0.N) :
    (dats m 0 c).flushed 6 t = ((cfg0.win 6).blk t).view.read (Elt Ideal)
      (outArr (V m c main_arg0) (V m c main_v9) (V m c main_v19) (V m c main_v21) (V m c main_v23) (V m c main_v24)) := by
  rw [Value.flushed6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨-, -, -, -, -, -, -, -, -, -, -, -, e0, e1⟩ := idx_facts t
  funext j
  refine point_gen (V m c main_arg0) (V m c main_v9) (V m c main_v19) (V m c main_v21) (V m c main_v23) (V m c main_v24) t j
    (((cfg0.win 6).blk t).view.emb j) ?_ ?_
  · show win0_6.index t (0 : Fin 2) * 5000 + 1 * (j 0).val = t.val * 5000 + (j 0).val
    rw [e0]; omega
  · show win0_6.index t (1 : Fin 2) * 128 + 1 * (j 1).val = (j 1).val
    rw [e1]; omega

/-! ## The row blocks tile the array -/

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v25).slice (win0_6.rect t)).set ↔ _
  rw [View.set_slice_whole, Rect.mem_set_unit]
  exact Iff.rfl

/-- Row `r` is in the block of point `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_6 _, ?_⟩
  rw [mem_blk]
  obtain ⟨-, -, -, -, -, -, -, -, -, -, -, -, e0, e1⟩ := idx_facts ⟨(i 0).val / 5000, ht⟩
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]; omega

/-- THE RESULT ARRAY after the run. -/
theorem final (c : Dev nD) : (dats m 0 c).arrAt 6 cfg0.N
    = outArr (V m c main_arg0) (V m c main_v9) (V m c main_v19) (V m c main_v21) (V m c main_v23) (V m c main_v24) :=
  (dats m 0 c).arrAt_eq_of_cover 6 _ (fun t _ => flushed_eq m c t) cover

/-- The kernel's run with the result array named: `outArr` of the arrays the region finds, the arguments unchanged. -/
theorem run : θ_run defs (onTc (τ := τ) (main (F := Ideal))) ⟨m, fun _ => 0, ρ⟩ fun r => ∀ c : Dev nD,
      r.2.mem ((c : Thread nD τ).loc main_v25)
        = outArr (V m c main_arg0) (V m c main_v9) (V m c main_v19) (V m c main_v21) (V m c main_v23) (V m c main_v24)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.KernelHost.lean ====
/-
  The arrays the host hands the kernel, as functions of the arguments.

  Before the call the host computes, from the arguments: the neighbour sums (a gather of the features at the edge
  sources, scatter-added at the edge targets); the column of reciprocal degrees `1 / max(deg, 1)`, the degree counted in
  32-bit integers and converted; the two halves of the weight (rows 0–127 and 128–255, rounded to bf16 — the identity at
  the ideal values); and the bias as one row.  Each is read here at one element.
-/
import proofs.«104703_j128849019137_2_alg».proof.Proof.Gen.KernelIdeal.Frame
import proofs.«104703_j128849019137_2_alg».proof.Proof.LibKeepdims
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-! ## The host's terms -/

/-- The neighbour sums: the features gathered at the edge sources (a negative source index wrapped by the node count
    first), scatter-added into zeros at the edge targets. -/
def nsum (x0 : FVec Ideal S100000x128 .f32) (x1 x2 : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x2)
    (Host.gather gather_S100000x128_S1600000x1_S1600000x128_1_0_n_n_0_1_1128 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- The degrees, counted in 32-bit integers: ones scatter-added into zeros at the edge targets. -/
def degInt (x2 : IVec S1600000 32) : IVec S100000 32 :=
  Host.scatter scatter_S100000_S1600000x1_S1600000_n_0_0_1 IntOp.addi
    (broadcastInDim S100000 ![] bcast_S_S100000 (constantI S_ 32 0#32))
    (broadcastInDim S1600000x1 ![0] bcast_S1600000_S1600000x1_0 x2)
    (broadcastInDim S1600000 ![] bcast_S_S1600000 (constantI S_ 32 1#32))

/-- The reciprocal degrees `1 / max(deg, 1)`, as a column. -/
def invDeg (x2 : IVec S1600000 32) : FVec Ideal S100000x1 .f32 :=
  shapeCast S100000x1
    (Host.divf (F := Ideal) (broadcastInDim S100000 ![] bcast_S_S100000 (constant (F := Ideal) S_ .f32 0x3F800000#32))
      (maximumf (sitofp .f32 (degInt x2)) (broadcastInDim S100000 ![] bcast_S_S100000 (constant (F := Ideal) S_ .f32 0x3F800000#32))))
    shapeCasts_S100000_S100000x1

/-- The weight's rows 0–127, for the features. -/
def wLo (x3 : FVec Ideal S256x128 .f32) : FVec Ideal S128x128 .bf16 :=
  truncf .bf16 (extractStridedSlice S128x128 ![0, 0] x3 slices_S256x128_S128x128_0_0) bitsLt_bf16_f32

/-- The weight's rows 128–255, for the neighbour means. -/
def wHi (x3 : FVec Ideal S256x128 .f32) : FVec Ideal S128x128 .bf16 :=
  truncf .bf16 (extractStridedSlice S128x128 ![128, 0] x3 slices_S256x128_S128x128_128_0) bitsLt_bf16_f32

/-- The bias as one row. -/
def bRow (x4 : FVec Ideal S128 .f32) : FVec Ideal S1x128 .f32 := shapeCast S1x128 x4 shapeCasts_S128_S1x128

/-! ## The region finds them -/

variable (m : (ℓ : Loc nD τ sig) → Buf (Elt Ideal) ℓ)

theorem V_v9 (c : Dev nD) : (V m c main_v9 : S100000x128.Idx → EReal)
    = nsum (m ((c : Thread nD τ).loc main_arg0)) (m ((c : Thread nD τ).loc main_arg1)) (m ((c : Thread nD τ).loc main_arg2)) := by
  dsimp only [Gen.V, Gen.hostOps0]
  after_results
  rfl

theorem V_v19 (c : Dev nD) : (V m c main_v19 : S100000x1.Idx → EReal) = invDeg (m ((c : Thread nD τ).loc main_arg2)) := by
  dsimp only [Gen.V, Gen.hostOps0]
  after_results
  rfl

theorem V_v21 (c : Dev nD) : (V m c main_v21 : S128x128.Idx → EReal) = wLo (m ((c : Thread nD τ).loc main_arg3)) := by
  dsimp only [Gen.V, Gen.hostOps0]
  after_results
  rfl

theorem V_v23 (c : Dev nD) : (V m c main_v23 : S128x128.Idx → EReal) = wHi (m ((c : Thread nD τ).loc main_arg3)) := by
  dsimp only [Gen.V, Gen.hostOps0]
  after_results
  rfl

theorem V_v24 (c : Dev nD) : (V m c main_v24 : S1x128.Idx → EReal) = bRow (m ((c : Thread nD τ).loc main_arg4)) := by
  dsimp only [Gen.V, Gen.hostOps0]
  after_results
  rfl

/-! ## Each at an element -/

/-- A scalar spread over any shape reads the scalar everywhere. -/
theorem splat_apply {t : Shape} {α : Type} (h : S_.BroadcastsInDim t (![] : Fin 0 → Fin t.rank)) (x : S_.Idx → α) (j : t.Idx) :
    broadcastInDim t ![] h x j = x ix0 :=
  broadcastInDim_apply _ h x j ix0 (fun a => a.elim0)

/-- The reciprocal-degree column at node `r`: `1 / max(deg r, 1)` with `deg r` the converted integer count, `1` the
    pattern of `1.0`. -/
theorem invDeg_apply (x2 : IVec S1600000 32) (r : Fin 100000) :
    invDeg x2 (ix2 r (0 : Fin 1))
      = Ideal.div (Ideal.ofBits .f32 0x3F800000#32)
          (max ((((degInt x2 (ix1 r)).toInt : ℝ) : EReal)) (Ideal.ofBits .f32 0x3F800000#32)) := by
  unfold invDeg
  rw [Cert.LibKeepdims.shapeCast_a_a1_apply _ shapeCasts_S100000_S100000x1 r 0]
  show Ideal.div (broadcastInDim S100000 ![] bcast_S_S100000 (constant (F := Ideal) S_ .f32 0x3F800000#32) (ix1 r))
      (max ((((degInt x2 (ix1 r)).toInt : ℝ) : EReal))
        (broadcastInDim S100000 ![] bcast_S_S100000 (constant (F := Ideal) S_ .f32 0x3F800000#32) (ix1 r))) = _
  rw [splat_apply]
  rfl

/-- The first weight half at `(k, c)`: the weight at `(k, c)`. -/
theorem wLo_apply (x3 : FVec Ideal S256x128 .f32) (k : Fin 128) (c : Fin 128) (k' : Fin 256) (hk : k'.val = k.val) :
    wLo x3 (ix2 k c) = x3 (ix2 k' c) := by
  unfold wLo
  show extractStridedSlice S128x128 ![0, 0] x3 slices_S256x128_S128x128_0_0 (ix2 k c) = _
  exact slice2_axis0_apply 0 x3 slices_S256x128_S128x128_0_0 k c k' (by omega)

/-- The second weight half at `(k, c)`: the weight at `(128 + k, c)`. -/
theorem wHi_apply (x3 : FVec Ideal S256x128 .f32) (k : Fin 128) (c : Fin 128) (k' : Fin 256) (hk : k'.val = 128 + k.val) :
    wHi x3 (ix2 k c) = x3 (ix2 k' c) := by
  unfold wHi
  show extractStridedSlice S128x128 ![128, 0] x3 slices_S256x128_S128x128_128_0 (ix2 k c) = _
  exact slice2_axis0_apply 128 x3 slices_S256x128_S128x128_128_0 k c k' hk

/-- The bias row at `(0, c)`: the bias at `c`. -/
theorem bRow_apply (x4 : FVec Ideal S128 .f32) (c : Fin 128) : bRow x4 (ix2 (0 : Fin 1) c) = x4 (ix1 c) := by
  unfold bRow
  exact shapeCast_a_1a_apply x4 shapeCasts_S128_S1x128 0 c

end Cert.KernelIdeal.HostSide

end
-- ==== Proof.Spec.lean ====
/-
  The layer, as one formula.

  For node `r` and output feature `c`, with `feat` the node features, `nsum[r,·]` the sum of the features of the sources
  of the edges into `r`, `deg r` the number of those edges, `W` the 256×128 weight and `b` the bias:

      out[r,c] = (∑ₖ feat[r,k] · W[k,c])  +  (∑ₖ (nsum[r,k] · (max (deg r) 1)⁻¹) · W[128+k,c])  +  b[c]        (k < 128)

  — the projection of the concatenation `[feat[r,·], nsum[r,·] / max(deg r, 1)]` with the contraction over its 256
  columns cut into the two halves.  The reference contracts all 256 columns at once and divides; the kernel runs the two
  halves separately and multiplies by a reciprocal.  Three laws of the extended reals join them, none of which needs a
  finite operand: a sum over 256 indices is the sum over the first 128 plus the sum over the last 128; `max d 1` is never
  zero, so a quotient by it is the product with its inverse; and `1 · y = y`.
-/
import Idealize.ShloMosaic.PureOps.Ideal
import Idealize.ShloMosaic.Lib.ValueIdx

noncomputable section

namespace Cert.SageSpec

open Idealize.ShloMosaic Idealize.ShloMosaic.ValueIdx

/-- Column `k` of the concatenation's first half, as one of its 256 columns. -/
abbrev lo (k : Fin 128) : Fin 256 := ⟨k.val, Nat.lt_of_lt_of_le k.isLt (by decide)⟩
/-- Column `k` of the second half: column `128 + k` of the 256. -/
abbrev hi (k : Fin 128) : Fin 256 := ⟨128 + k.val, by have := k.isLt; omega⟩

/-- The layer's output at node `r`, feature `c`. -/
def sageAt (feat ns : (⟨2, ![100000, 128]⟩ : Shape).Idx → EReal) (deg : (⟨1, ![100000]⟩ : Shape).Idx → EReal)
    (W : (⟨2, ![256, 128]⟩ : Shape).Idx → EReal) (b : (⟨1, ![128]⟩ : Shape).Idx → EReal) (r : Fin 100000) (c : Fin 128) : EReal :=
  ((∑ k : Fin 128, feat (ix2 r k) * W (ix2 (lo k) c))
      + ∑ k : Fin 128, (ns (ix2 r k) * (max (deg (ix1 r)) 1)⁻¹) * W (ix2 (hi k) c))
    + b (ix1 c)

/-- A sum over the 256 columns is the sum over the first half plus the sum over the second. -/
theorem sum_split (f : Fin 256 → EReal) : ∑ k : Fin 256, f k = (∑ k : Fin 128, f (lo k)) + ∑ k : Fin 128, f (hi k) :=
  Fin.sum_univ_add (a := 128) (b := 128) f

/-- A degree floored at one is not zero. -/
theorem max_one_ne_zero (x : EReal) : max x 1 ≠ 0 :=
  ne_of_gt (lt_of_lt_of_le (by exact_mod_cast (zero_lt_one : (0 : ℝ) < 1)) (le_max_right x 1))

/-- A quotient by a floored degree is the product with its inverse. -/
theorem div_max (a x : EReal) : Ideal.div a (max x 1) = a * (max x 1)⁻¹ := by
  unfold Ideal.div
  rw [if_neg (max_one_ne_zero x)]

/-- The reciprocal of a floored degree, computed as `1 / ·`, is its inverse. -/
theorem one_div_max (x : EReal) : Ideal.div 1 (max x 1) = (max x 1)⁻¹ := by
  rw [div_max, one_mul]

end Cert.SageSpec

end
-- ==== Proof.Consts.lean ====
/-
  The two float constants the programs spell, as the extended reals their bit patterns denote: `+0.0` is `0` and
  `1.0` is `1`.  Both programs use `1.0` three ways — the value every edge adds to its target's degree, the floor
  under the degree, and (the kernel only) the numerator of the reciprocal degree — and the last two need its value:
  `1 · d⁻¹ = d⁻¹`, and `max d 1` is positive.
-/
import Idealize.ShloMosaic.PureOps.Ideal

noncomputable section

namespace Cert.SageConsts

open Idealize.ShloMosaic

/-- The pattern of `+0.0` denotes `0`. -/
theorem ofBits_zero : Ideal.ofBits .f32 0x00000000#32 = 0 := by
  simp [Ideal.ofBits, Ideal.ieee]

/-- The pattern of `1.0` denotes `1`: sign `+`, exponent field `127` (the bias), fraction `0`. -/
theorem ofBits_one : Ideal.ofBits .f32 0x3F800000#32 = 1 := by
  simp [Ideal.ofBits, Ideal.ieee, -EReal.coe_mul]; norm_num

end Cert.SageConsts

end
-- ==== Proof.RefRead.lean ====
/-
  The reference, read at one element.

  Its last stage at `(r, c)` is the contraction of row `r` of the concatenation `[feat, nsum / max(deg, 1)]` with column `c`
  of the weight, plus the bias at `c`.  Columns `k < 128` of the concatenation are the features, columns `128 + k` the
  neighbour means; the floored degree is spread from the nodes' vector over a row, so at `(r, k)` it is the one of node `r`.
  Splitting the contraction at column 128 gives the layer's formula.
-/
import proofs.«104703_j128849019137_2_alg».proof.Proof.Gen.ReferenceIdeal.Read
import proofs.«104703_j128849019137_2_alg».proof.Proof.Spec
import proofs.«104703_j128849019137_2_alg».proof.Proof.Consts
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.SageSpec

variable (x0 : FVec Ideal S100000x128 .f32) (x1 x2 : IVec S1600000 32) (x3 : FVec Ideal S256x128 .f32) (x4 : FVec Ideal S128 .f32)

/-- The floored degree, spread over the rows, at `(r, k)`: node `r`'s. -/
theorem v17_apply (r : Fin 100000) (k : Fin 128) :
    val_main_v17 (F := Ideal) x2 (ix2 r k) = max (val_main_v13 (F := Ideal) x2 (ix1 r)) 1 := by
  rw [val_main_v17_apply, val_main_v16_apply, val_main_v15_apply, val_main_v14_apply, val_main_cst_3_apply]
  have e : idx_main_v16 (idx_main_v17 (ix2 r k)) = ix1 r := funext fun a => Fin.ext (by match a with | ⟨0, _⟩ => rfl)
  rw [e]
  show max _ (Ideal.ofBits .f32 0x3F800000#32) = _
  rw [Cert.SageConsts.ofBits_one]

/-- The neighbour mean at `(r, k)`. -/
theorem v18_apply (r : Fin 100000) (k : Fin 128) :
    val_main_v18 (F := Ideal) x0 x1 x2 (ix2 r k)
      = val_main_v9 (F := Ideal) x0 x1 x2 (ix2 r k) * (max (val_main_v13 (F := Ideal) x2 (ix1 r)) 1)⁻¹ := by
  rw [val_main_v18_apply, v17_apply]
  exact div_max _ _

/-- Column `k` of the concatenation's first half is the feature. -/
theorem cat_lo (r : Fin 100000) (c : Fin 128) (k : Fin 128) :
    val_main_v19 (F := Ideal) x0 x1 x2 (lidx_main_v20 (ix2 r c) (lo k)) = x0 (ix2 r k) := by
  unfold val_main_v19
  exact concatenate_pair_apply_left (t := S100000x256) 1 x0 _ concatenates_S100000x128_S100000x128_S100000x256_d1 _ rfl (ix2 r k)
    (fun b => by match b with | ⟨0, _⟩ => rfl | ⟨1, _⟩ => rfl)

/-- Column `128 + k` is the neighbour mean. -/
theorem cat_hi (r : Fin 100000) (c : Fin 128) (k : Fin 128) :
    val_main_v19 (F := Ideal) x0 x1 x2 (lidx_main_v20 (ix2 r c) (hi k)) = val_main_v18 (F := Ideal) x0 x1 x2 (ix2 r k) := by
  unfold val_main_v19
  refine concatenate_pair_apply_right (t := S100000x256) 1 x0 _ concatenates_S100000x128_S100000x128_S100000x256_d1 _ rfl rfl (ix2 r k)
    (fun b hb => ?_) ?_
  · match b with
    | ⟨0, _⟩ => rfl
    | ⟨1, _⟩ => exact absurd rfl hb
  · show k.val + 128 = 128 + k.val
    omega

/-- THE REFERENCE AT AN ELEMENT is the layer's formula. -/
theorem ref_apply (r : Fin 100000) (c : Fin 128) :
    val_main_v23 (F := Ideal) x0 x1 x2 x3 x4 (ix2 r c)
      = sageAt x0 (val_main_v9 (F := Ideal) x0 x1 x2) (val_main_v13 (F := Ideal) x2) x3 x4 r c := by
  rw [val_main_v23_apply, val_main_v20_apply, val_main_v22_apply, val_main_v21_apply]
  show (∑ k : Fin 256, val_main_v19 (F := Ideal) x0 x1 x2 (lidx_main_v20 (ix2 r c) k) * x3 (ridx_main_v20 (ix2 r c) k))
      + x4 (idx_main_v21 (idx_main_v22 (ix2 r c))) = _
  rw [sum_split]
  unfold sageAt
  have er : ∀ k : Fin 256, ridx_main_v20 (ix2 r c) k = ix2 k c := fun k =>
    funext fun a => Fin.ext (by match a with | ⟨0, _⟩ => rfl | ⟨1, _⟩ => rfl)
  have eb : idx_main_v21 (idx_main_v22 (ix2 r c)) = ix1 c := funext fun a => Fin.ext (by match a with | ⟨0, _⟩ => rfl)
  refine congrArg₂ (· + ·) (congrArg₂ (· + ·) (Finset.sum_congr rfl fun k _ => ?_) (Finset.sum_congr rfl fun k _ => ?_)) ?_
  · rw [cat_lo, er]
  · rw [cat_hi, v18_apply, er]
  · rw [eb]

/-- The reference's result array, whole. -/
theorem ref_eq : val_main_v23 (F := Ideal) x0 x1 x2 x3 x4
    = fun i => sageAt x0 (val_main_v9 (F := Ideal) x0 x1 x2) (val_main_v13 (F := Ideal) x2) x3 x4 (i 0) (i 1) := by
  funext i
  obtain ⟨r, c, rfl⟩ : ∃ (r : Fin 100000) (c : Fin 128), i = ix2 r c := ⟨i 0, i 1, eq_ix2 i⟩
  exact ref_apply x0 x1 x2 x3 x4 r c

end Cert.ReferenceIdeal.RefValue

end
-- ==== Proof.LibScatterCount.lean ====
/-
  General lemma: counting by an integer scatter-add.

  `zeros.at[idx].add(1)` over 32-bit integers counts, for each element of the operand, the update positions whose
  scatter index lands on it.  The host's scatter is a left fold over the update positions in row-major order; with the
  body `+` and every update `1` the fold at an element `i` is the operand there plus the number of positions that
  land on `i`, as a 32-bit word.  When there are fewer than `2^31` update positions the word, read SIGNED, is that
  number itself, so converting it to a float gives exactly what the float scatter-add of ones gives at the ideal
  values: `0 + ∑_{j lands on i} 1`.  (An integer degree count converted to float is the float degree sum.)
-/
import Idealize.ShloMosaic.PureOps.Ideal

noncomputable section

namespace Cert.LibScatterCount

open Idealize.ShloMosaic

variable {s si u : Shape}

/-- The fold, one element at a time: the scatter of ones with body `+` holds at `i` the operand's word there plus the
    number of update positions landing on `i`. -/
theorem scatter_addi_ones_apply (d : ScatterDims s si u) {w : Nat} (x : s.Idx → BitVec 32) (idx : IVec si w) (i : s.Idx) :
    Host.scatter d IntOp.addi x idx (fun _ => 1#32) i
      = x i + BitVec.ofNat 32 ((List.finRange u.numel).countP fun n => decide (d.resultIdx? (u.rowMajor.symm n) idx = some i)) := by
  unfold Host.scatter
  generalize List.finRange u.numel = l
  induction l generalizing x with
  | nil => simp
  | cons n l ih =>
    rw [List.foldl_cons, ih, List.countP_cons]
    cases h : d.resultIdx? (u.rowMajor.symm n) idx with
    | none => simp
    | some i0 =>
      by_cases hi : i = i0
      · subst hi
        simp only [if_true, decide_true, IntOp.addi, BitVec.ofNat_add]
        show x i + 1#32 + _ = x i + (_ + 1#32)
        rw [BitVec.add_assoc, BitVec.add_comm 1#32]
      · have hne : ¬ (some i0 = some i) := fun e => hi (Option.some.inj e).symm
        simp [hi, hne]

/-- The row-major positions that satisfy a condition are as many as the indices that do. -/
theorem countP_finRange_eq_card (p : u.Idx → Prop) [DecidablePred p] :
    (List.finRange u.numel).countP (fun n => decide (p (u.rowMajor.symm n))) = (Finset.univ.filter p).card := by
  have h1 : (Finset.univ.filter p).card = (Finset.univ.filter fun n : Fin u.numel => p (u.rowMajor.symm n)).card :=
    Finset.card_equiv u.rowMajor (by simp)
  rw [h1]
  simp [Finset.card, Fin.univ_def, List.countP_eq_length_filter]

/-- A sum of ones over a finite set, in the extended reals, is the set's size. -/
theorem sum_one_eq_card {ι : Type} (S : Finset ι) : (∑ _j ∈ S, (1 : EReal)) = ((S.card : ℝ) : EReal) := by
  classical
  induction S using Finset.induction_on with
  | empty => simp
  | insert a S ha ih =>
    rw [Finset.sum_insert ha, ih, Finset.card_insert_of_notMem ha, add_comm]
    push_cast
    rfl

/-- At the ideal values the host's accumulating float scatter IS the exact sum, whatever the shapes (stated over variable
    shapes, so that no concrete index type is ever enumerated to see it). -/
theorem scatterAdd_ideal (d : ScatterDims s si u) {w : Nat} {φ : FTy} (x : FVec Ideal s φ) (idx : IVec si w) (upd : FVec Ideal u φ) :
    Host.scatterAdd d x idx upd = Ideal.hostScatterAdd d x idx upd := rfl

/-- The exact sum depends on the operand and the updates only through their values. -/
theorem hostScatterAdd_congr (d : ScatterDims s si u) {w : Nat} {x x' : s.Idx → EReal} (idx : IVec si w) {upd upd' : u.Idx → EReal}
    (hx : x = x') (hupd : upd = upd') : Ideal.hostScatterAdd d x idx upd = Ideal.hostScatterAdd d x' idx upd' := by
  subst hx hupd
  rfl

/-- THE COUNT: the 32-bit scatter-add of ones into zeros, read signed and as a real, is the float scatter-add of ones
    into zeros at the ideal values — the number of update positions landing on `i` — as long as there are fewer than
    `2^31` update positions (so that the count does not wrap). -/
theorem sitofp_scatter_addi_ones (d : ScatterDims s si u) {w : Nat} (idx : IVec si w) (hu : u.numel < 2 ^ 31) (i : s.Idx) :
    (((Host.scatter d IntOp.addi (fun _ => 0#32) idx (fun _ => 1#32) i).toInt : ℝ) : EReal)
      = Ideal.hostScatterAdd d (fun _ => 0) idx (fun _ => 1) i := by
  rw [scatter_addi_ones_apply, countP_finRange_eq_card (fun j => d.resultIdx? j idx = some i)]
  unfold Ideal.hostScatterAdd
  rw [zero_add, sum_one_eq_card]
  have hc : (Finset.univ.filter fun j : u.Idx => d.resultIdx? j idx = some i).card ≤ u.numel :=
    (Finset.card_filter_le _ _).trans (by rw [Finset.card_univ, Shape.card_idx])
  generalize (Finset.univ.filter fun j : u.Idx => d.resultIdx? j idx = some i).card = c at hc ⊢
  have ht : (0#32 + BitVec.ofNat 32 c).toInt = (c : Int) := by
    rw [BitVec.zero_add, BitVec.toInt_eq_toNat_cond, BitVec.toNat_ofNat]
    have : c < 2 ^ 31 := lt_of_le_of_lt hc hu
    omega
  rw [ht, Int.cast_natCast]

end Cert.LibScatterCount

end
-- ==== Proof.Bridge.lean ====
/-
  The kernel's function of the arguments is the reference's.

  Both programs compute the neighbour sums by the same host operations: one term.  The kernel counts each node's degree
  in 32-bit integers and converts the count; the reference adds `1.0` per edge in floats: with 1.6 million edges the
  integer count cannot wrap, so the two degrees are one number.  The kernel multiplies by `1 / max(deg, 1)` where the
  reference divides by `max(deg, 1)`, which is never zero; and the kernel's two weight halves are rows `k` and `128 + k`
  of the reference's one weight.  So the kernel's result, row by row, is the layer's formula, which is what the reference
  computes.
-/
import proofs.«104703_j128849019137_2_alg».proof.Proof.KernelValue
import proofs.«104703_j128849019137_2_alg».proof.Proof.KernelHost
import proofs.«104703_j128849019137_2_alg».proof.Proof.RefRead
import proofs.«104703_j128849019137_2_alg».proof.Proof.LibScatterCount
import proofs.«104703_j128849019137_2_alg».proof.Proof.Spec
import proofs.«104703_j128849019137_2_alg».proof.Proof.Consts

noncomputable section

namespace Cert.Bridge

open Idealize.ShloMosaic Idealize.ShloMosaic.TcCoe Idealize.SL.Sem Idealize.ShloMosaic.ValueIdx
open Cert.SageSpec
open Cert.KernelIdeal (S100000x128 S1600000 S256x128 S128 S100000 S1600000x1 S_)

/-- The neighbour sums: the kernel's host term is the reference's stage. -/
theorem nsum_eq (x0 : FVec Ideal S100000x128 .f32) (x1 x2 : IVec S1600000 32) :
    Cert.KernelIdeal.HostSide.nsum x0 x1 x2 = Cert.ReferenceIdeal.Read.val_main_v9 (F := Ideal) x0 x1 x2 := rfl

/-- Fewer than `2^31` edges: a signed 32-bit count of them cannot wrap. -/
theorem edges_lt : S1600000.numel < 2 ^ 31 := by decide

/-- The kernel's integer degree count, converted: the exact sum of a one per edge into the node. -/
theorem degInt_sum (x2 : IVec S1600000 32) (i : S100000.Idx) :
    ((((Cert.KernelIdeal.HostSide.degInt x2 i).toInt : ℝ)) : EReal)
      = Ideal.hostScatterAdd Cert.KernelIdeal.scatter_S100000_S1600000x1_S1600000_n_0_0_1 (fun _ => 0)
          (broadcastInDim S1600000x1 ![0] Cert.KernelIdeal.Gen.bcast_S1600000_S1600000x1_0 x2) (fun _ => 1) i := by
  have hz : broadcastInDim S100000 ![] Cert.KernelIdeal.Gen.bcast_S_S100000 (constantI S_ 32 0#32) = fun _ => 0#32 :=
    funext fun j => Cert.KernelIdeal.HostSide.splat_apply _ _ j
  have ho : broadcastInDim S1600000 ![] Cert.KernelIdeal.Gen.bcast_S_S1600000 (constantI S_ 32 1#32) = fun _ => 1#32 :=
    funext fun j => Cert.KernelIdeal.HostSide.splat_apply _ _ j
  unfold Cert.KernelIdeal.HostSide.degInt
  rw [hz, ho]
  exact Cert.LibScatterCount.sitofp_scatter_addi_ones _ _ edges_lt i

/-- The reference's array of zeros the degrees are added into. -/
theorem zeros_eq : Cert.ReferenceIdeal.Read.val_main_v11 (F := Ideal) = fun _ => (0 : EReal) := funext fun j => by
  rw [Cert.ReferenceIdeal.Read.val_main_v11_apply, Cert.ReferenceIdeal.Read.val_main_cst_2_apply]
  exact Cert.SageConsts.ofBits_zero

/-- The reference's array of a `1.0` per edge. -/
theorem ones_eq : Cert.ReferenceIdeal.Read.val_main_v10 (F := Ideal) = fun _ => (1 : EReal) := funext fun j => by
  rw [Cert.ReferenceIdeal.Read.val_main_v10_apply, Cert.ReferenceIdeal.Read.val_main_cst_1_apply]
  exact Cert.SageConsts.ofBits_one

/-- The reference's float degrees: the same exact sum. -/
theorem v13_sum (x2 : IVec S1600000 32) :
    Cert.ReferenceIdeal.Read.val_main_v13 (F := Ideal) x2
      = Ideal.hostScatterAdd Cert.ReferenceIdeal.scatter_S100000_S1600000x1_S1600000_n_0_0_1 (fun _ => 0)
          (Cert.ReferenceIdeal.Read.val_main_v12 (F := Ideal) x2) (fun _ => 1) :=
  (Cert.LibScatterCount.scatterAdd_ideal Cert.ReferenceIdeal.scatter_S100000_S1600000x1_S1600000_n_0_0_1
      (Cert.ReferenceIdeal.Read.val_main_v11 (F := Ideal)) (Cert.ReferenceIdeal.Read.val_main_v12 (F := Ideal) x2)
      (Cert.ReferenceIdeal.Read.val_main_v10 (F := Ideal))).trans
    (Cert.LibScatterCount.hostScatterAdd_congr _ _ zeros_eq ones_eq)

/-- The two programs scatter at the same targets with the same dimension numbers. -/
theorem sums_agree (x2 : IVec S1600000 32) (i : S100000.Idx) :
    Ideal.hostScatterAdd Cert.KernelIdeal.scatter_S100000_S1600000x1_S1600000_n_0_0_1 (fun _ => 0)
          (broadcastInDim S1600000x1 ![0] Cert.KernelIdeal.Gen.bcast_S1600000_S1600000x1_0 x2) (fun _ => 1) i
      = Ideal.hostScatterAdd Cert.ReferenceIdeal.scatter_S100000_S1600000x1_S1600000_n_0_0_1 (fun _ => 0)
          (Cert.ReferenceIdeal.Read.val_main_v12 (F := Ideal) x2) (fun _ => 1) i := rfl

/-- THE DEGREES AGREE: node `r`'s integer edge count, converted, is the reference's float sum of ones. -/
theorem deg_eq (x2 : IVec S1600000 32) (r : Fin 100000) :
    ((((Cert.KernelIdeal.HostSide.degInt x2 (ix1 r)).toInt : ℝ)) : EReal)
      = Cert.ReferenceIdeal.Read.val_main_v13 (F := Ideal) x2 (ix1 r) :=
  (degInt_sum x2 (ix1 r)).trans ((sums_agree x2 (ix1 r)).trans (congrFun (v13_sum x2) (ix1 r)).symm)

/-- THE KERNEL'S ELEMENT IS THE LAYER'S FORMULA, from the host's terms for the six staged arrays. -/
theorem out_eq_sage (x0 : FVec Ideal S100000x128 .f32) (x1 x2 : IVec S1600000 32) (x3 : FVec Ideal S256x128 .f32)
    (x4 : FVec Ideal S128 .f32) (r : Fin 100000) (c : Fin 128) :
    Cert.KernelIdeal.Hand.outAt x0 (Cert.KernelIdeal.HostSide.nsum x0 x1 x2) (Cert.KernelIdeal.HostSide.invDeg x2)
        (Cert.KernelIdeal.HostSide.wLo x3) (Cert.KernelIdeal.HostSide.wHi x3) (Cert.KernelIdeal.HostSide.bRow x4) r c
      = sageAt x0 (Cert.ReferenceIdeal.Read.val_main_v9 (F := Ideal) x0 x1 x2) (Cert.ReferenceIdeal.Read.val_main_v13 (F := Ideal) x2) x3 x4 r c := by
  unfold Cert.KernelIdeal.Hand.outAt sageAt
  refine congrArg₂ (· + ·) (congrArg₂ (· + ·) (Finset.sum_congr rfl fun k _ => ?_) (Finset.sum_congr rfl fun k _ => ?_)) ?_
  · rw [Cert.KernelIdeal.HostSide.wLo_apply x3 k c (lo k) rfl]
  · rw [Cert.KernelIdeal.HostSide.wHi_apply x3 k c (hi k) rfl, Cert.KernelIdeal.HostSide.invDeg_apply, deg_eq, nsum_eq,
      Cert.SageConsts.ofBits_one, one_div_max]
  · exact Cert.KernelIdeal.HostSide.bRow_apply x4 c

/-- The result both programs end with, as a function of the five arguments. -/
def result (x0 : FVec Ideal S100000x128 .f32) (x1 x2 : IVec S1600000 32) (x3 : FVec Ideal S256x128 .f32)
    (x4 : FVec Ideal S128 .f32) : S100000x128.Idx → EReal :=
  fun i => sageAt x0 (Cert.ReferenceIdeal.Read.val_main_v9 (F := Ideal) x0 x1 x2) (Cert.ReferenceIdeal.Read.val_main_v13 (F := Ideal) x2) x3 x4 (i 0) (i 1)

/-- The reference's last stage is `result`. -/
theorem ref_result (x0 : FVec Ideal S100000x128 .f32) (x1 x2 : IVec S1600000 32) (x3 : FVec Ideal S256x128 .f32)
    (x4 : FVec Ideal S128 .f32) : Cert.ReferenceIdeal.Read.val_main_v23 (F := Ideal) x0 x1 x2 x3 x4 = result x0 x1 x2 x3 x4 :=
  Cert.ReferenceIdeal.RefValue.ref_eq x0 x1 x2 x3 x4

section Kernel
open Cert.KernelIdeal Cert.KernelIdeal.Gen

variable (m : (ℓ : Loc nD τ sig) → Buf (Elt Ideal) ℓ)

/-- The kernel's result array is `result` of the arguments as launched. -/
theorem ker_result (c : Dev nD) :
    Hand.outArr (V m c main_arg0) (V m c main_v9) (V m c main_v19) (V m c main_v21) (V m c main_v23) (V m c main_v24)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [V_main_arg0 m c, HostSide.V_v9 m c, HostSide.V_v19 m c, HostSide.V_v21 m c, HostSide.V_v23 m c, HostSide.V_v24 m c]
  funext i
  exact out_eq_sage _ _ _ _ _ (i 0) (i 1)

end Kernel

end Cert.Bridge

end
-- ==== Proof.lean ====
/-
  A GraphSAGE layer with the mean aggregator: for every node `r`,
      out[r,·] = [feat[r,·], mean of feat over the sources of the edges into r] · W + b,
  the mean of a node without incoming edges being zero (the sum is divided by `max(deg r, 1)`).

  Both programs gather the edge sources' features and scatter-add them at the edge targets on the host: the neighbour sums
  are one term in the two of them.  They differ in three places.  The reference adds `1.0` per edge in floats to get the
  degrees, the kernel's host code counts the edges in 32-bit integers and converts: 1.6 million edges cannot wrap a signed
  32-bit count, so the degrees are one number (Proof/LibScatterCount.lean, Proof/Bridge.lean `deg_eq`).  The reference
  divides by `max(deg, 1)`, the kernel multiplies by `1 / max(deg, 1)`: the floored degree is never zero, so both are the
  product with its inverse (Proof/Spec.lean).  The reference contracts the 256 columns of the concatenation with the whole
  weight, the kernel contracts the two halves with rows 0–127 and 128–255 of the weight and adds: a sum over 256 indices
  cut at 128 (Proof/Spec.lean `sum_split`).  None of these laws needs a finite operand, so the precondition is not opened.

  The kernel runs on a grid of 20 row blocks of 5000 rows; what a point writes back is the layer's formula at its rows
  (Proof/KernelPay.lean, Proof/KernelBlocks.lean, Proof/KernelValue.lean) of the arrays the host hands it
  (Proof/KernelHost.lean), and the blocks tile the rows.  The reference is read stage by stage (Proof/RefRead.lean).
  The idealization rewrote nothing, so `preserves` has nothing to state.
-/
import proofs.«104703_j128849019137_2_alg».proof.Defs
import proofs.«104703_j128849019137_2_alg».proof.Proof.Gen.Kernel
import proofs.«104703_j128849019137_2_alg».proof.Proof.Gen.Kernel.Skeleton
import proofs.«104703_j128849019137_2_alg».proof.Proof.Gen.Kernel.Launch
import proofs.«104703_j128849019137_2_alg».proof.Proof.Gen.Kernel.Points
import proofs.«104703_j128849019137_2_alg».proof.Proof.Gen.Kernel.Frame
import proofs.«104703_j128849019137_2_alg».proof.Proof.Gen.KernelIdeal
import proofs.«104703_j128849019137_2_alg».proof.Proof.Gen.KernelIdeal.Skeleton
import proofs.«104703_j128849019137_2_alg».proof.Proof.Gen.KernelIdeal.Launch
import proofs.«104703_j128849019137_2_alg».proof.Proof.Gen.KernelIdeal.Points
import proofs.«104703_j128849019137_2_alg».proof.Proof.Gen.KernelIdeal.Frame
import proofs.«104703_j128849019137_2_alg».proof.Proof.Gen.KernelIdeal.Value
import proofs.«104703_j128849019137_2_alg».proof.Proof.Gen.ReferenceIdeal
import proofs.«104703_j128849019137_2_alg».proof.Proof.Gen.ReferenceIdeal.Run
import proofs.«104703_j128849019137_2_alg».proof.Proof.Gen.ReferenceIdeal.Read
import proofs.«104703_j128849019137_2_alg».proof.Proof.Gen.Pre_finite_inputs
import proofs.«104703_j128849019137_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with `Bridge.result` of them: the kernel's row blocks
    tile its result array with the layer's formula, and the reference's last stage is that formula. -/
theorem algebraic : Cert.algebraic_KernelIdeal_ReferenceIdeal := by
  intro m ρ m' ρ' _ hagree
  refine ⟨fun c => Cert.Bridge.result
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono
      (fun r h c => ⟨(h c).1.trans (Cert.Bridge.ker_result m c), (h c).2⟩) (Cert.KernelIdeal.Hand.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, Cert.Bridge.ref_result, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
